-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S16384x1024 .f32) (main_arg1 : FVec F S1024x512 .f32) (main_arg2 : FVec F S512 .f32) (main_arg3 : FVec F S512x512 .f32) (main_arg4 : FVec F S512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S16384x1024 : Shape := ⟨2, ![16384, 1024]⟩
abbrev S1024x512 : Shape := ⟨2, ![1024, 512]⟩
abbrev S512 : Shape := ⟨1, ![512]⟩
abbrev S512x512 : Shape := ⟨2, ![512, 512]⟩
abbrev S1x512 : Shape := ⟨2, ![1, 512]⟩
abbrev S16384x512 : Shape := ⟨2, ![16384, 512]⟩
abbrev S1024x1024 : Shape := ⟨2, ![1024, 1024]⟩
abbrev S2048x512 : Shape := ⟨2, ![2048, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S1024x1024_S1024x1024_0_0 : ∀ a, (![0, 0] : Fin 2 → Nat) a + S1024x1024.size a ≤ S1024x1024.size a
  h_S1024x1024 : 0 < S1024x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S2048x512_S1024x512_0_0 : ∀ a, (![0, 0] : Fin 2 → Nat) a + S1024x512.size a ≤ S2048x512.size a
  inb_S2048x512_S1024x512_1024_0 : ∀ a, (![1024, 0] : Fin 2 → Nat) a + S1024x512.size a ≤ S2048x512.size a
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S16384x512.size a
  hwx0_6 : ∀ i : grid0.Coords, EltTy.bits .f32 = 32 ∨ (Rect.block (s := S16384x512) S2048x512.size (cc0_transform_6 i) (hinb0_6 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x512 : Shape := ⟨2, ![1024, 512]⟩
abbrev S512 : Shape := ⟨1, ![512]⟩
abbrev S512x512 : Shape := ⟨2, ![512, 512]⟩
abbrev S16384x512 : Shape := ⟨2, ![16384, 512]⟩
abbrev S1x512 : Shape := ⟨2, ![1, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S16384x512, .f32⟩
  | .hbm, ⟨6, _⟩ => ⟨S1x512, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.KernelBody.lean ====
/-
  The two-layer perceptron kernel, run block by block.

  The launch hands the body seven staging buffers at each of the eight grid points: two adjacent slabs of 1024 rows of the
  input matrix (both cut from ONE array), the two weight matrices and the two bias rows (the same block at every point), and
  a block of 2048 rows of the result.  The body reads the six inputs whole and writes the result block in two halves, rows
  0..1023 from the first slab and rows 1024..2047 from the second.  This module states what the result block holds after the
  body as a function of the six input blocks, proves the body's triple, and gives the data of the pipeline around it: the
  arrays as the region finds them, each input buffer holding its block at every point, the result buffer holding the two
  halves.  The two input windows on one array each hold HALF of that array's share.
-/
import proofs.«141469_g33294586479106_cont_8to1_b_976_7_alg».proof.Proof.Gen.Kernel.Launch
import proofs.«141469_g33294586479106_cont_8to1_b_976_7_alg».proof.Proof.Gen.Kernel.Skeleton
import proofs.«141469_g33294586479106_cont_8to1_b_976_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers when the region is entered: the launch contents after the two reshapes of the bias vectors to rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, the block index
    has not moved), for any data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, the block index
    has not moved), for any data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, the block index
    has not moved), for any data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, the block index
    has not moved), for any data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, the block index
    has not moved), for any data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result block -/

abbrev rX : Rect S1024x1024 := Rect.unit (s := S1024x1024) ![0, 0] S1024x1024.size inb_S1024x1024_S1024x1024_0_0
abbrev rW1 : Rect S1024x512 := Rect.unit (s := S1024x512) ![0, 0] S1024x512.size inb_S1024x512_S1024x512_0_0
abbrev rW2 : Rect S512x512 := Rect.unit (s := S512x512) ![0, 0] S512x512.size inb_S512x512_S512x512_0_0
abbrev rB : Rect S1x512 := Rect.unit (s := S1x512) ![0, 0] S1x512.size inb_S1x512_S1x512_0_0
abbrev rLo : Rect S2048x512 := Rect.unit (s := S2048x512) ![0, 0] S1024x512.size inb_S2048x512_S1024x512_0_0
abbrev rHi : Rect S2048x512 := Rect.unit (s := S2048x512) ![1024, 0] S1024x512.size inb_S2048x512_S1024x512_1024_0

/-- The result block after the body, from the six input blocks: its two stores as pieces, the later first — rows 1024..2047
    the perceptron of the second slab, rows 0..1023 the perceptron of the first. -/
def outBlk (xa xb : Vec F S1024x1024 .f32) (w1 : Vec F S1024x512 .f32) (b1 : Vec F S1x512 .f32) (w2 : Vec F S512x512 .f32) (b2 : Vec F S1x512 .f32) :
    Vec F S2048x512 .f32 :=
  View.canon [⟨rHi, k0_pay2 (View.ld w1 rW1) (View.ld w2 rW2) (View.ld xb rX) (View.ld b1 rB) (View.ld b2 rB)⟩,
    ⟨rLo, k0_pay1 (View.ld w1 rW1) (View.ld w2 rW2) (View.ld xa rX) (View.ld b1 rB) (View.ld b2 rB)⟩]

/-- The two halves tile the block, so they cover it. -/
theorem cover_out (p1 p0 : Vec F S1024x512 .f32) (y : S2048x512.Idx) :
    ∃ pc ∈ ([⟨rHi, p1⟩, ⟨rLo, p0⟩] : List (View.Piece (Elt F) S2048x512 .f32)), y ∈ pc.1.set :=
  View.cover_of_tiled [⟨rHi, p1⟩, ⟨rLo, p0⟩] S1024x512.size (by rfl) y

/-! ## The body's triple -/

set_option maxHeartbeats 1000000 in
/-- The body on whole staging memrefs, the inputs' at read contents and the result's at anything, runs to the continuation
    holding the inputs' as they were and the result's at `outBlk` of the inputs'. -/
theorem sound_kernel (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x512 .f32) (harg3 : arg3.IsWhole) (arg4 : Memref sig .tc .vmem S1x512 .f32) (harg4 : arg4.IsWhole)
    (arg5 : Memref sig .tc .vmem S512x512 .f32) (harg5 : arg5.IsWhole) (arg6 : Memref sig .tc .vmem S1x512 .f32) (harg6 : arg6.IsWhole)
    (arg7 : Memref sig .tc .vmem S2048x512 .f32) (harg7 : arg7.IsWhole)
    (x0 x1 : Vec F S1024x1024 .f32) (x2 : Vec F S1024x512 .f32) (x3 : Vec F S1x512 .f32) (x4 : Vec F S512x512 .f32) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

/-! ## The pipeline's data -/

/-- The data of the one pipeline on core `c`: the arrays as the region finds them; after the body at point `t` each
    input's buffer at its block and the result's at `outBlk` of the input blocks; the invariant the core's scoped
    buffers that are no staging buffer; nothing owed; the two windows on the input matrix hold the two halves of its
    share, every other window the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = outBlk (iblk m c 0 t) (iblk m c 1 t) (iblk m c 2 t) (iblk m c 3 t) (iblk m c 4 t) (iblk m c 5 t) := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Mlp

end
-- ==== Proof.KernelLaunch.lean ====
/-
  The launch of the perceptron kernel's region and what it leaves in memory.

  Two of the seven windows read ONE array (adjacent slabs of the input matrix), so that array's full share is dealt to them
  in two halves when the region is entered; every other window's array is held whole.  From the body obligation the launch
  rule gives the run: every execution ends, each window's array holds what the write-backs of the eight points left
  (an input array its contents at entry), and every buffer the region does not touch is as the region found it.  Read at the
  five argument arrays this is the frame: they end as they were launched.
-/
import proofs.«141469_g33294586479106_cont_8to1_b_976_7_alg».proof.Proof.KernelBody
import Idealize.ShloMosaic.Lib.Pipeline.Frame

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares at the region's entry -/

/-- The buffers behind the seven windows' arrays are six: the input matrix is behind two windows. -/
theorem arrRefs_eq : Finset.univ.image (Pipeline.arrRef spec0)
    = ([main_arg0, main_arg1, main_call0_v0, main_arg3, main_call0_v1, main_v0] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- The six buffers one by one. -/
theorem arrBufs_eq (c : Dev nD) : (Pipeline.arrBufs spec0 c (V m c) : sProp 𝕄)
    = iprop((((c : Thread nD τ).loc main_arg0) ↦{fullShare} V m c main_arg0) ∗ (((c : Thread nD τ).loc main_arg1) ↦{fullShare} V m c main_arg1)
        ∗ (((c : Thread nD τ).loc main_call0_v0) ↦{fullShare} V m c main_call0_v0) ∗ (((c : Thread nD τ).loc main_arg3) ↦{fullShare} V m c main_arg3)
        ∗ (((c : Thread nD τ).loc main_call0_v1) ↦{fullShare} V m c main_call0_v1) ∗ (((c : Thread nD τ).loc main_v0) ↦{fullShare} V m c main_v0)) := by
  unfold Pipeline.arrBufs
  exact bigSep_eq_bigSepL_of_eq _ arrRefs_eq (by decide) _

/-- The six buffers, each whole at the full share at the entry contents, are the seven windows' arrays at their shares:
    the input matrix's share is split in its two halves, one for each window on it. -/
theorem hsplit (c : Dev nD) :
    (Pipeline.arrBufs spec0 c (V m c) : sProp 𝕄) ⊢ (dats m 0 c).arrays ((dats m 0 c).arrAt · 0) := by
  have e : ((dats m 0 c).arrays ((dats m 0 c).arrAt · 0) : sProp 𝕄)
      = bigSep Finset.univ fun w : Fin 7 => ((((c : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [e, bigSep_W0, arrBufs_eq]
  simp only [share0, share1, share2, share3, share4, share5, share6]
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-! ## The run -/

set_option backward.isDefEq.respectTransparency.types false in
/-- From any memory with zero counters every weakly fair execution of the program ends, with every window's array at
    what the write-backs left and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      refine (show (iprop(emp ∗ Pipeline.scopedRest spec0 c) : sProp 𝕄) ⊢ Pipeline.scopedRest spec0 c from ?_)
      iintro ⟨-, H⟩
      iexact H)
    (hout := fun c => by
      refine (show (Pipeline.scopedRest spec0 c : sProp 𝕄) ⊢ iprop(emp ∗ Pipeline.scopedRest spec0 c) from ?_)
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The five argument arrays end as they were launched: three are input arrays of the region, which writes no input, and
    the two bias vectors are touched neither by the reshapes nor by the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.Kernel.Mlp

end
-- ==== Proof.IdealBody.lean ====
/-
  The two-layer perceptron kernel, run block by block.

  The launch hands the body seven staging buffers at each of the eight grid points: two adjacent slabs of 1024 rows of the
  input matrix (both cut from ONE array), the two weight matrices and the two bias rows (the same block at every point), and
  a block of 2048 rows of the result.  The body reads the six inputs whole and writes the result block in two halves, rows
  0..1023 from the first slab and rows 1024..2047 from the second.  This module states what the result block holds after the
  body as a function of the six input blocks, proves the body's triple, and gives the data of the pipeline around it: the
  arrays as the region finds them, each input buffer holding its block at every point, the result buffer holding the two
  halves.  The two input windows on one array each hold HALF of that array's share.
-/
import proofs.«141469_g33294586479106_cont_8to1_b_976_7_alg».proof.Proof.Gen.KernelIdeal.Launch
import proofs.«141469_g33294586479106_cont_8to1_b_976_7_alg».proof.Proof.Gen.KernelIdeal.Skeleton
import proofs.«141469_g33294586479106_cont_8to1_b_976_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers when the region is entered: the launch contents after the two reshapes of the bias vectors to rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index
    has not moved), for any data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, the block index
    has not moved), for any data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, the block index
    has not moved), for any data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, the block index
    has not moved), for any data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, the block index
    has not moved), for any data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, the block index
    has not moved), for any data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result block -/

abbrev rX : Rect S1024x1024 := Rect.unit (s := S1024x1024) ![0, 0] S1024x1024.size inb_S1024x1024_S1024x1024_0_0
abbrev rW1 : Rect S1024x512 := Rect.unit (s := S1024x512) ![0, 0] S1024x512.size inb_S1024x512_S1024x512_0_0
abbrev rW2 : Rect S512x512 := Rect.unit (s := S512x512) ![0, 0] S512x512.size inb_S512x512_S512x512_0_0
abbrev rB : Rect S1x512 := Rect.unit (s := S1x512) ![0, 0] S1x512.size inb_S1x512_S1x512_0_0
abbrev rLo : Rect S2048x512 := Rect.unit (s := S2048x512) ![0, 0] S1024x512.size inb_S2048x512_S1024x512_0_0
abbrev rHi : Rect S2048x512 := Rect.unit (s := S2048x512) ![1024, 0] S1024x512.size inb_S2048x512_S1024x512_1024_0

/-- The result block after the body, from the six input blocks: its two stores as pieces, the later first — rows 1024..2047
    the perceptron of the second slab, rows 0..1023 the perceptron of the first. -/
def outBlk (xa xb : Vec F S1024x1024 .f32) (w1 : Vec F S1024x512 .f32) (b1 : Vec F S1x512 .f32) (w2 : Vec F S512x512 .f32) (b2 : Vec F S1x512 .f32) :
    Vec F S2048x512 .f32 :=
  View.canon [⟨rHi, k0_pay2 (View.ld w1 rW1) (View.ld w2 rW2) (View.ld xb rX) (View.ld b1 rB) (View.ld b2 rB)⟩,
    ⟨rLo, k0_pay1 (View.ld w1 rW1) (View.ld w2 rW2) (View.ld xa rX) (View.ld b1 rB) (View.ld b2 rB)⟩]

/-- The two halves tile the block, so they cover it. -/
theorem cover_out (p1 p0 : Vec F S1024x512 .f32) (y : S2048x512.Idx) :
    ∃ pc ∈ ([⟨rHi, p1⟩, ⟨rLo, p0⟩] : List (View.Piece (Elt F) S2048x512 .f32)), y ∈ pc.1.set :=
  View.cover_of_tiled [⟨rHi, p1⟩, ⟨rLo, p0⟩] S1024x512.size (by rfl) y

/-! ## The body's triple -/

set_option maxHeartbeats 1000000 in
/-- The body on whole staging memrefs, the inputs' at read contents and the result's at anything, runs to the continuation
    holding the inputs' as they were and the result's at `outBlk` of the inputs'. -/
theorem sound_kernel (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x512 .f32) (harg3 : arg3.IsWhole) (arg4 : Memref sig .tc .vmem S1x512 .f32) (harg4 : arg4.IsWhole)
    (arg5 : Memref sig .tc .vmem S512x512 .f32) (harg5 : arg5.IsWhole) (arg6 : Memref sig .tc .vmem S1x512 .f32) (harg6 : arg6.IsWhole)
    (arg7 : Memref sig .tc .vmem S2048x512 .f32) (harg7 : arg7.IsWhole)
    (x0 x1 : Vec F S1024x1024 .f32) (x2 : Vec F S1024x512 .f32) (x3 : Vec F S1x512 .f32) (x4 : Vec F S512x512 .f32) (x5 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

/-! ## The pipeline's data -/

/-- The data of the one pipeline on core `c`: the arrays as the region finds them; after the body at point `t` each
    input's buffer at its block and the result's at `outBlk` of the input blocks; the invariant the core's scoped
    buffers that are no staging buffer; nothing owed; the two windows on the input matrix hold the two halves of its
    share, every other window the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = outBlk (iblk m c 0 t) (iblk m c 1 t) (iblk m c 2 t) (iblk m c 3 t) (iblk m c 4 t) (iblk m c 5 t) := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Mlp

end
-- ==== Proof.IdealLaunch.lean ====
/-
  The launch of the perceptron kernel's region and what it leaves in memory.

  Two of the seven windows read ONE array (adjacent slabs of the input matrix), so that array's full share is dealt to them
  in two halves when the region is entered; every other window's array is held whole.  From the body obligation the launch
  rule gives the run: every execution ends, each window's array holds what the write-backs of the eight points left
  (an input array its contents at entry), and every buffer the region does not touch is as the region found it.  Read at the
  five argument arrays this is the frame: they end as they were launched.
-/
import proofs.«141469_g33294586479106_cont_8to1_b_976_7_alg».proof.Proof.IdealBody
import Idealize.ShloMosaic.Lib.Pipeline.Frame

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares at the region's entry -/

/-- The buffers behind the seven windows' arrays are six: the input matrix is behind two windows. -/
theorem arrRefs_eq : Finset.univ.image (Pipeline.arrRef spec0)
    = ([main_arg0, main_arg1, main_call0_v0, main_arg3, main_call0_v1, main_v0] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- The six buffers one by one. -/
theorem arrBufs_eq (c : Dev nD) : (Pipeline.arrBufs spec0 c (V m c) : sProp 𝕄)
    = iprop((((c : Thread nD τ).loc main_arg0) ↦{fullShare} V m c main_arg0) ∗ (((c : Thread nD τ).loc main_arg1) ↦{fullShare} V m c main_arg1)
        ∗ (((c : Thread nD τ).loc main_call0_v0) ↦{fullShare} V m c main_call0_v0) ∗ (((c : Thread nD τ).loc main_arg3) ↦{fullShare} V m c main_arg3)
        ∗ (((c : Thread nD τ).loc main_call0_v1) ↦{fullShare} V m c main_call0_v1) ∗ (((c : Thread nD τ).loc main_v0) ↦{fullShare} V m c main_v0)) := by
  unfold Pipeline.arrBufs
  exact bigSep_eq_bigSepL_of_eq _ arrRefs_eq (by decide) _

/-- The six buffers, each whole at the full share at the entry contents, are the seven windows' arrays at their shares:
    the input matrix's share is split in its two halves, one for each window on it. -/
theorem hsplit (c : Dev nD) :
    (Pipeline.arrBufs spec0 c (V m c) : sProp 𝕄) ⊢ (dats m 0 c).arrays ((dats m 0 c).arrAt · 0) := by
  have e : ((dats m 0 c).arrays ((dats m 0 c).arrAt · 0) : sProp 𝕄)
      = bigSep Finset.univ fun w : Fin 7 => ((((c : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [e, bigSep_W0, arrBufs_eq]
  simp only [share0, share1, share2, share3, share4, share5, share6]
  iintro ⟨H0, H1, H2, H3, H4, H5⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  isplitl [H4]; · iexact H4
  iexact H5

/-! ## The run -/

set_option backward.isDefEq.respectTransparency.types false in
/-- From any memory with zero counters every weakly fair execution of the program ends, with every window's array at
    what the write-backs left and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      refine (show (iprop(emp ∗ Pipeline.scopedRest spec0 c) : sProp 𝕄) ⊢ Pipeline.scopedRest spec0 c from ?_)
      iintro ⟨-, H⟩
      iexact H)
    (hout := fun c => by
      refine (show (Pipeline.scopedRest spec0 c : sProp 𝕄) ⊢ iprop(emp ∗ Pipeline.scopedRest spec0 c) from ?_)
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The five argument arrays end as they were launched: three are input arrays of the region, which writes no input, and
    the two bias vectors are touched neither by the reshapes nor by the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.KernelIdeal.Mlp

end
-- ==== Proof.Spec.lean ====
/-
  The two-layer perceptron as one function of its five argument arrays, entry by entry, over the extended reals:

      hidden r j = max (Σ_k x[r,k] · w1[k,j] + b1[j]) 0,      out[r,c] = Σ_j hidden r j · w2[j,c] + b2[c].

  The zero of the rectifier is kept as the float word both programs spell it with; it is never evaluated.
-/
import Idealize.ShloMosaic.PureOps.Ideal.Laws
import Idealize.ShloMosaic.Lib.ValueIdx

noncomputable section

namespace Cert.Mlp

open Idealize.ShloMosaic Idealize.ShloMosaic.ValueIdx

/-- An `a × b` matrix of extended reals, indexed as the programs index their arrays. -/
abbrev Mat (a b : Nat) : Type := (⟨2, ![a, b]⟩ : Shape).Idx → EReal
/-- A vector of `a` extended reals. -/
abbrev Row (a : Nat) : Type := (⟨1, ![a]⟩ : Shape).Idx → EReal

/-- The rectifier's zero, as the float word. -/
abbrev zeroWord : EReal := Ideal.ofBits .f32 0x00000000#32

/-- Entry `(r, j)` of the hidden layer: the rectified affine image of row `r` of `x`. -/
def hiddenAt (x : Mat 16384 1024) (w1 : Mat 1024 512) (b1 : Row 512) (r : Fin 16384) (j : Fin 512) : EReal :=
  max ((∑ k : Fin 1024, x (ix2 r k) * w1 (ix2 k j)) + b1 (ix1 j)) zeroWord

/-- The perceptron's result: the affine image of the hidden layer. -/
def mlp (x : Mat 16384 1024) (w1 : Mat 1024 512) (b1 : Row 512) (w2 : Mat 512 512) (b2 : Row 512) : Mat 16384 512 := fun i =>
  (∑ j : Fin 512, hiddenAt x w1 b1 ⟨(i 0).val, (i 0).isLt⟩ j * w2 (ix2 j ⟨(i 1).val, (i 1).isLt⟩)) + b2 (ix1 ⟨(i 1).val, (i 1).isLt⟩)

end Cert.Mlp

end
-- ==== Proof.IdealPayload.lean ====
/-
  What the body computes for one half of a result block, entry by entry, over the extended reals.

  Each of the body's two stores writes the perceptron of one slab of 1024 input rows: a product with the first weight
  matrix into a zero accumulator, the first bias row broadcast down the rows and added, the rectifier, a product with
  the second weight matrix into a zero accumulator, the second bias row added.  At entry (p, q) that is
  Σ_j max (Σ_k x[p,k]·w1[k,j] + b1[0,j]) 0 · w2[j,q] + b2[0,q]  — `blkOut`.
-/
import proofs.«141469_g33294586479106_cont_8to1_b_976_7_alg».proof.Proof.Gen.KernelIdeal.Skeleton
import proofs.«141469_g33294586479106_cont_8to1_b_976_7_alg».proof.Proof.Spec
import Idealize.ShloMosaic.Lib.Pipeline.Value
import Idealize.ShloMosaic.Lib.ValueIdx
import Idealize.ShloMosaic.PureOps.Ideal.Laws

noncomputable section

namespace Cert.KernelIdeal.Mlp

open Cert.KernelIdeal Cert.KernelIdeal.Gen Idealize.ShloMosaic Idealize.ShloMosaic.ValueIdx Cert.Mlp

/-- The perceptron of a slab of 1024 rows, its biases given as rows of one line, at entry (p, q). -/
def blkOut (x : Vec Ideal S1024x1024 .f32) (w1 : Vec Ideal S1024x512 .f32) (b1 : Vec Ideal S1x512 .f32) (w2 : Vec Ideal S512x512 .f32)
    (b2 : Vec Ideal S1x512 .f32) (p : Fin 1024) (q : Fin 512) : EReal :=
  (∑ j : Fin 512, max ((∑ k : Fin 1024, x (ix2 p k) * w1 (ix2 k j)) + b1 (ix2 (0 : Fin 1) j)) zeroWord * w2 (ix2 j q)) + b2 (ix2 (0 : Fin 1) q)

theorem lhs1_0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs1_1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs1_0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs1_1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The matrix unit's product into a zero accumulator, at an entry: the sum over the contracted axis. -/
theorem matmul1_apply (l : FVec Ideal S1024x1024 .f32) (r : FVec Ideal S1024x512 .f32) (p : Fin 1024) (q : Fin 512) :
    matmul dot_S1024x1024_S1024x512_S1024x512_1_0_0_1_n_n none l r (constant (F := Ideal) S1024x512 .f32 0x00000000#32) (ix2 p q) = ∑ k : Fin 1024, l (ix2 p k) * r (ix2 k q) := by
  refine (Ideal.matmul_constant_zero_apply dot_S1024x1024_S1024x512_S1024x512_1_0_0_1_n_n none l r (ix2 p q)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs1_0 _ _).trans hk
    | ⟨1, _⟩ => exact rhs1_1 _ _)
  rw [el, er]

theorem lhs2_0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs2_1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem rhs2_0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem rhs2_1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The matrix unit's product into a zero accumulator, at an entry: the sum over the contracted axis. -/
theorem matmul2_apply (l : FVec Ideal S1024x512 .f32) (r : FVec Ideal S512x512 .f32) (p : Fin 1024) (q : Fin 512) :
    matmul dot_S1024x512_S512x512_S1024x512_1_0_0_1_n_n none l r (constant (F := Ideal) S1024x512 .f32 0x00000000#32) (ix2 p q) = ∑ k : Fin 512, l (ix2 p k) * r (ix2 k q) := by
  refine (Ideal.matmul_constant_zero_apply dot_S1024x512_S512x512_S1024x512_1_0_0_1_n_n none l r (ix2 p q)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs2_0 _ _
    | ⟨1, _⟩ => exact (lhs2_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-- A row of one line, cast to its own shape and broadcast down 1024 rows, read at (p, q): the row's entry q. -/
theorem row_bcast (b : Vec Ideal S1x512 .f32) (p : Fin 1024) (q : Fin 512) :
    broadcastTo S1024x512 (shapeCast S1x512 b shapeCasts_S1x512_S1x512) broadcasts_S1x512_S1024x512 (ix2 p q) = b (ix2 (0 : Fin 1) q) := by
  rw [shapeCast_self]
  exact broadcastTo_apply b broadcasts_S1x512_S1024x512 (ix2 p q) (ix2 (0 : Fin 1) q) (fun a => match a with
    | ⟨0, _⟩ => by show (0 : ℕ) = if (1 : Nat) = 1 then 0 else _; rw [if_pos rfl]
    | ⟨1, _⟩ => by show q.val = if (512 : Nat) = 1 then 0 else q.val; rw [if_neg (by decide)])

/-- The first store's value at (p, q). -/
theorem pay1_apply (w1 : Vec Ideal S1024x512 .f32) (w2 : Vec Ideal S512x512 .f32) (x : Vec Ideal S1024x1024 .f32) (b1 b2 : Vec Ideal S1x512 .f32)
    (p : Fin 1024) (q : Fin 512) : k0_pay1 w1 w2 x b1 b2 (ix2 p q) = blkOut x w1 b1 w2 b2 p q := by
  unfold k0_pay1 blkOut
  refine (addf_apply _ _ _).trans ?_
  refine congrArg₂ (· + ·) ?_ (row_bcast b2 p q)
  refine (matmul2_apply _ w2 p q).trans ?_
  refine Finset.sum_congr rfl fun j _ => congrArg₂ (· * ·) ?_ rfl
  refine congrArg₂ max ?_ rfl
  exact congrArg₂ (· + ·) (matmul1_apply x w1 p j) (row_bcast b1 p j)

/-- The second store's value at (p, q): the same function of the second slab. -/
theorem pay2_apply (w1 : Vec Ideal S1024x512 .f32) (w2 : Vec Ideal S512x512 .f32) (x : Vec Ideal S1024x1024 .f32) (b1 b2 : Vec Ideal S1x512 .f32)
    (p : Fin 1024) (q : Fin 512) : k0_pay2 w1 w2 x b1 b2 (ix2 p q) = blkOut x w1 b1 w2 b2 p q := by
  unfold k0_pay2 blkOut
  refine (addf_apply _ _ _).trans ?_
  refine congrArg₂ (· + ·) ?_ (row_bcast b2 p q)
  refine (matmul2_apply _ w2 p q).trans ?_
  refine Finset.sum_congr rfl fun j _ => congrArg₂ (· * ·) ?_ rfl
  refine congrArg₂ max ?_ rfl
  exact congrArg₂ (· + ·) (matmul1_apply x w1 p j) (row_bcast b1 p j)

/-- A slab's perceptron at (p, q) is the whole perceptron at the entry `i` of the result whose row is the slab's row p and
    whose column is q, once the slab, the weights and the bias rows are read where the arrays hold them. -/
theorem blkOut_eq_mlp (X : Mat 16384 1024) (W1 : Mat 1024 512) (B1 : Row 512) (W2 : Mat 512 512) (B2 : Row 512)
    (x : Vec Ideal S1024x1024 .f32) (w1 : Vec Ideal S1024x512 .f32) (b1 : Vec Ideal S1x512 .f32) (w2 : Vec Ideal S512x512 .f32)
    (b2 : Vec Ideal S1x512 .f32) (i : (⟨2, ![16384, 512]⟩ : Shape).Idx) (p : Fin 1024) (q : Fin 512)
    (hx : ∀ k : Fin 1024, x (ix2 p k) = X (ix2 ⟨(i 0).val, (i 0).isLt⟩ k))
    (hw1 : ∀ (k : Fin 1024) (j : Fin 512), w1 (ix2 k j) = W1 (ix2 k j))
    (hb1 : ∀ j : Fin 512, b1 (ix2 (0 : Fin 1) j) = B1 (ix1 j))
    (hw2 : ∀ j : Fin 512, w2 (ix2 j q) = W2 (ix2 j ⟨(i 1).val, (i 1).isLt⟩))
    (hb2 : b2 (ix2 (0 : Fin 1) q) = B2 (ix1 ⟨(i 1).val, (i 1).isLt⟩)) :
    blkOut x w1 b1 w2 b2 p q = mlp X W1 B1 W2 B2 i := by
  unfold blkOut mlp hiddenAt
  simp only [hx, hw1, hb1, hw2, hb2]

end Cert.KernelIdeal.Mlp

end
-- ==== Proof.IdealValue.lean ====
/-
  From blocks to the array: the idealized kernel's result is the perceptron of its arguments.

  Point t of the eight writes back rows 2048·t .. 2048·t + 2047 of the result.  The first slab it was handed is rows
  2048·t + p of the input matrix, the second rows 2048·t + 1024 + p, the weights are the whole weight matrices, and the bias
  rows are the bias vectors reshaped to one line.  So the lower half of the block it writes is the perceptron at rows
  2048·t + p and the upper half at rows 2048·t + 1024 + p: the block is block t of the perceptron of the whole arrays.
  The eight blocks tile the result, hence the result array ends as that function.
-/
import proofs.«141469_g33294586479106_cont_8to1_b_976_7_alg».proof.Proof.IdealLaunch
import proofs.«141469_g33294586479106_cont_8to1_b_976_7_alg».proof.Proof.IdealPayload
import Idealize.ShloMosaic.Lib.Pipeline.Value
import Idealize.ShloMosaic.Lib.StableHlo.Run

set_option maxRecDepth 16384

noncomputable section

namespace Cert.KernelIdeal.Mlp

open Cert.KernelIdeal Cert.KernelIdeal.Gen Idealize.ShloMosaic Idealize.ShloMosaic.TcCoe Idealize.SL.Sem
open Idealize.ShloMosaic.ValueIdx Idealize.ShloMosaic.StableHlo Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The perceptron of the five argument arrays as launched. -/
abbrev outArr (c : Dev nD) : Mat 16384 512 :=
  mlp (m ((c : Thread nD τ).loc main_arg0)) (m ((c : Thread nD τ).loc main_arg1)) (m ((c : Thread nD τ).loc main_arg2))
    (m ((c : Thread nD τ).loc main_arg3)) (m ((c : Thread nD τ).loc main_arg4))

/-- The index maps over the grid: the two slabs are blocks 2t and 2t + 1 of the input matrix, the weights and bias rows
    block 0, the result block t. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks, read where the arrays hold them -/

/-- The first slab's row p at point t is row 2048·t + p of the input matrix. -/
theorem blk_xa (c : Dev nD) (t : Fin cfg0.N) (p k : Fin 1024) (r : Fin 16384) (hr : r.val = 2048 * t.val + p.val) :
    iblk m c 0 t (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- The second slab's row p at point t is row 2048·t + 1024 + p of the input matrix. -/
theorem blk_xb (c : Dev nD) (t : Fin cfg0.N) (p k : Fin 1024) (r : Fin 16384) (hr : r.val = 2048 * t.val + 1024 + p.val) :
    iblk m c 1 t (ix2 p k) = m ((c : Thread nD τ).loc main_arg0) (ix2 r k) := by
  obtain ⟨-, -, e0, e1, -⟩ := idx_facts t
  show V m c main_arg0 (((cfg0.win 1).blk t).view.emb (ix2 p k)) = _
  rw [V_main_arg0]
  refine congrArg (m ((c : Thread nD τ).loc main_arg0)) (funext fun a => Fin.ext ?_)
  match a with
  | ⟨0, _⟩ => show win0_1.index t (0 : Fin 2) * 1024 + 1 * p.val = r.val; omega
  | ⟨1, _⟩ => show win0_1.index t (1 : Fin 2) * 1024 + 1 * k.val = k.val; omega

/-- The first weight block is the first weight matrix. -/
theorem blk_w1 (c : Dev nD) (t : Fin cfg0.N) (k : Fin 1024) (j : Fin 512) :
    iblk m c 2 t (ix2 k j) = m ((c : Thread nD τ).loc main_arg1) (ix2 k j) := by
  obtain ⟨-, -, -, -, e0, e1, -⟩ := idx_facts t
  show V m c main_arg1 (((cfg0.win 2).blk t).view.emb (ix2 k j)) = _
  rw [V_main_arg1]
  refine congrArg (m ((c : Thread nD τ).loc main_arg1)) (funext fun a => Fin.ext ?_)
  match a with
  | ⟨0, _⟩ => show win0_2.index t (0 : Fin 2) * 1024 + 1 * k.val = k.val; omega
  | ⟨1, _⟩ => show win0_2.index t (1 : Fin 2) * 512 + 1 * j.val = j.val; omega

/-- The second weight block is the second weight matrix. -/
theorem blk_w2 (c : Dev nD) (t : Fin cfg0.N) (k j : Fin 512) :
    iblk m c 4 t (ix2 k j) = m ((c : Thread nD τ).loc main_arg3) (ix2 k j) := by
  obtain ⟨-, -, -, -, -, -, -, -, e0, e1, -⟩ := idx_facts t
  show V m c main_arg3 (((cfg0.win 4).blk t).view.emb (ix2 k j)) = _
  rw [V_main_arg3]
  refine congrArg (m ((c : Thread nD τ).loc main_arg3)) (funext fun a => Fin.ext ?_)
  match a with
  | ⟨0, _⟩ => show win0_4.index t (0 : Fin 2) * 512 + 1 * k.val = k.val; omega
  | ⟨1, _⟩ => show win0_4.index t (1 : Fin 2) * 512 + 1 * j.val = j.val; omega

/-- The first bias row as the region finds it: the first bias vector reshaped to one line. -/
theorem V_b1 (c : Dev nD) (j : Fin 512) :
    V m c main_call0_v0 (ix2 (0 : Fin 1) j) = m ((c : Thread nD τ).loc main_arg2) (ix1 j) := by
  have e : (V m c main_call0_v0 : S1x512.Idx → EReal) = shapeCast S1x512 (m ((c : Thread nD τ).loc main_arg2)) shapeCasts_S512_S1x512 := by
    dsimp only [V, hostOps0]; after_results; rfl
  exact (congrFun e (ix2 (0 : Fin 1) j)).trans (shapeCast_apply _ _ (ix2 (0 : Fin 1) j) (ix1 j) (by
    rw [Shape.rowMajor_val_one, Shape.rowMajor_val_two]; show j.val = 0 * 512 + j.val; omega))

/-- The second bias row as the region finds it: the second bias vector reshaped to one line. -/
theorem V_b2 (c : Dev nD) (j : Fin 512) :
    V m c main_call0_v1 (ix2 (0 : Fin 1) j) = m ((c : Thread nD τ).loc main_arg4) (ix1 j) := by
  have e : (V m c main_call0_v1 : S1x512.Idx → EReal) = shapeCast S1x512 (m ((c : Thread nD τ).loc main_arg4)) shapeCasts_S512_S1x512 := by
    dsimp only [V, hostOps0]; after_results; rfl
  exact (congrFun e (ix2 (0 : Fin 1) j)).trans (shapeCast_apply _ _ (ix2 (0 : Fin 1) j) (ix1 j) (by
    rw [Shape.rowMajor_val_one, Shape.rowMajor_val_two]; show j.val = 0 * 512 + j.val; omega))

theorem blk_b1 (c : Dev nD) (t : Fin cfg0.N) (j : Fin 512) :
    iblk m c 3 t (ix2 (0 : Fin 1) j) = m ((c : Thread nD τ).loc main_arg2) (ix1 j) := by
  obtain ⟨-, -, -, -, -, -, e0, e1, -⟩ := idx_facts t
  refine Eq.trans ?_ (V_b1 m c j)
  show V m c main_call0_v0 (((cfg0.win 3).blk t).view.emb (ix2 (0 : Fin 1) j)) = _
  refine congrArg (V m c main_call0_v0) (funext fun a => Fin.ext ?_)
  match a with
  | ⟨0, _⟩ => show win0_3.index t (0 : Fin 2) * 1 + 1 * 0 = 0; omega
  | ⟨1, _⟩ => show win0_3.index t (1 : Fin 2) * 512 + 1 * j.val = j.val; omega

theorem blk_b2 (c : Dev nD) (t : Fin cfg0.N) (j : Fin 512) :
    iblk m c 5 t (ix2 (0 : Fin 1) j) = m ((c : Thread nD τ).loc main_arg4) (ix1 j) := by
  obtain ⟨-, -, -, -, -, -, -, -, -, -, e0, e1, -⟩ := idx_facts t
  refine Eq.trans ?_ (V_b2 m c j)
  show V m c main_call0_v1 (((cfg0.win 5).blk t).view.emb (ix2 (0 : Fin 1) j)) = _
  refine congrArg (V m c main_call0_v1) (funext fun a => Fin.ext ?_)
  match a with
  | ⟨0, _⟩ => show win0_5.index t (0 : Fin 2) * 1 + 1 * 0 = 0; omega
  | ⟨1, _⟩ => show win0_5.index t (1 : Fin 2) * 512 + 1 * j.val = j.val; omega

/-! ## The two halves of the block point t writes -/

/-- The lower half, at its entry x, is the perceptron at the array's entry under it. -/
theorem lo_piece (c : Dev nD) (t : Fin cfg0.N) (x : S1024x512.Idx) :
    k0_pay1 (View.ld (iblk m c 2 t) rW1) (View.ld (iblk m c 4 t) rW2) (View.ld (iblk m c 0 t) rX) (View.ld (iblk m c 3 t) rB) (View.ld (iblk m c 5 t) rB) x
      = outArr m c (((cfg0.win 6).blk t).view.emb (rLo.emb x)) := by
  obtain ⟨p, q, rfl⟩ : ∃ (p : Fin 1024) (q : Fin 512), x = ix2 p q := ⟨x 0, x 1, eq_ix2 x⟩
  obtain ⟨-, -, -, -, -, -, -, -, -, -, -, -, e0, e1⟩ := idx_facts t
  have ht : t.val < 8 := lt_of_lt_of_eq t.isLt N_0
  simp only [View.ld_unit_zero (S := S1024x512) hz, View.ld_unit_zero (S := S512x512) hz, View.ld_unit_zero (S := S1024x1024) hz,
    View.ld_unit_zero (S := S1x512) hz]
  refine (pay1_apply (iblk m c 2 t) (iblk m c 4 t) (iblk m c 0 t) (iblk m c 3 t) (iblk m c 5 t) p q).trans ?_
  refine blkOut_eq_mlp _ _ _ _ _ (iblk m c 0 t) (iblk m c 2 t) (iblk m c 3 t) (iblk m c 4 t) (iblk m c 5 t)
    (((cfg0.win 6).blk t).view.emb (rLo.emb (ix2 p q))) p q ?_ ?_ ?_ ?_ ?_
  · intro k
    exact blk_xa m c t p k _ (by show win0_6.index t (0 : Fin 2) * 2048 + 1 * (0 + 1 * p.val) = 2048 * t.val + p.val; omega)
  · intro k j; exact blk_w1 m c t k j
  · intro j; exact blk_b1 m c t j
  · intro j
    refine (blk_w2 m c t j q).trans (congrArg (m ((c : Thread nD τ).loc main_arg3)) (funext fun a => Fin.ext ?_))
    match a with
    | ⟨0, _⟩ => rfl
    | ⟨1, _⟩ => show q.val = win0_6.index t (1 : Fin 2) * 512 + 1 * (0 + 1 * q.val); omega
  · refine (blk_b2 m c t q).trans (congrArg (m ((c : Thread nD τ).loc main_arg4)) (funext fun a => Fin.ext ?_))
    match a with
    | ⟨0, _⟩ => show q.val = win0_6.index t (1 : Fin 2) * 512 + 1 * (0 + 1 * q.val); omega

/-- The upper half likewise, from the second slab. -/
theorem hi_piece (c : Dev nD) (t : Fin cfg0.N) (x : S1024x512.Idx) :
    k0_pay2 (View.ld (iblk m c 2 t) rW1) (View.ld (iblk m c 4 t) rW2) (View.ld (iblk m c 1 t) rX) (View.ld (iblk m c 3 t) rB) (View.ld (iblk m c 5 t) rB) x
      = outArr m c (((cfg0.win 6).blk t).view.emb (rHi.emb x)) := by
  obtain ⟨p, q, rfl⟩ : ∃ (p : Fin 1024) (q : Fin 512), x = ix2 p q := ⟨x 0, x 1, eq_ix2 x⟩
  obtain ⟨-, -, -, -, -, -, -, -, -, -, -, -, e0, e1⟩ := idx_facts t
  have ht : t.val < 8 := lt_of_lt_of_eq t.isLt N_0
  simp only [View.ld_unit_zero (S := S1024x512) hz, View.ld_unit_zero (S := S512x512) hz, View.ld_unit_zero (S := S1024x1024) hz,
    View.ld_unit_zero (S := S1x512) hz]
  refine (pay2_apply (iblk m c 2 t) (iblk m c 4 t) (iblk m c 1 t) (iblk m c 3 t) (iblk m c 5 t) p q).trans ?_
  refine blkOut_eq_mlp _ _ _ _ _ (iblk m c 1 t) (iblk m c 2 t) (iblk m c 3 t) (iblk m c 4 t) (iblk m c 5 t)
    (((cfg0.win 6).blk t).view.emb (rHi.emb (ix2 p q))) p q ?_ ?_ ?_ ?_ ?_
  · intro k
    exact blk_xb m c t p k _ (by show win0_6.index t (0 : Fin 2) * 2048 + 1 * (1024 + 1 * p.val) = 2048 * t.val + 1024 + p.val; omega)
  · intro k j; exact blk_w1 m c t k j
  · intro j; exact blk_b1 m c t j
  · intro j
    refine (blk_w2 m c t j q).trans (congrArg (m ((c : Thread nD τ).loc main_arg3)) (funext fun a => Fin.ext ?_))
    match a with
    | ⟨0, _⟩ => rfl
    | ⟨1, _⟩ => show q.val = win0_6.index t (1 : Fin 2) * 512 + 1 * (0 + 1 * q.val); omega
  · refine (blk_b2 m c t q).trans (congrArg (m ((c : Thread nD τ).loc main_arg4)) (funext fun a => Fin.ext ?_))
    match a with
    | ⟨0, _⟩ => show q.val = win0_6.index t (1 : Fin 2) * 512 + 1 * (0 + 1 * q.val); omega

/-! ## What point t writes back, the cover, and the array -/

/-- Point t writes back block t of the perceptron of the arguments. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after6]
  unfold outBlk
  funext y
  refine (View.canon_apply_of_pieces (fun y => outArr m c (((cfg0.win 6).blk t).view.emb y)) _ (fun pc hpc x => ?_) y (cover_out _ _ y)).trans rfl
  rcases List.mem_cons.mp hpc with rfl | hpc
  · exact hi_piece m c t x
  · rcases List.mem_singleton.mp hpc with rfl
    exact lo_piece m c t x

/-- An index of the result is in point t's block iff its row is among the block's 2048 rows. -/
theorem mem_blk (t : Fin cfg0.N) (i : S16384x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v0).slice (win0_6.rect t)).set ↔ _
  rw [View.set_slice_whole, Rect.mem_set_unit]
  exact Iff.rfl

/-- Every entry of the result is in the block of the point its row divided by 2048 names. -/
theorem cover (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  let t : Fin cfg0.N := ⟨(i 0).val / 2048, by rw [show cfg0.N = 8 from N_0]; omega⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048
              have : t.val = (i 0).val / 2048 := rfl
              omega
  | ⟨1, _⟩ => show win0_6.index t (1 : Fin 2) * 512 ≤ (i 1).val ∧ (i 1).val < win0_6.index t (1 : Fin 2) * 512 + 512; omega

/-- The result array after the run is the perceptron of the arguments. -/
theorem final (c : Dev nD) : (dats m 0 c).arrAt 6 cfg0.N = outArr m c :=
  (dats m 0 c).arrAt_eq_of_cover 6 (outArr m c) (fun t _ => flushed_eq m c t) cover

/-- Every execution of the idealized kernel ends with the result array at the perceptron of the arguments and the
    arguments unchanged. -/
theorem run : θ_run defs (onTc (τ := τ) (main (F := Ideal))) ⟨m, fun _ => 0, ρ⟩ fun r => ∀ c : Dev nD,
      r.2.mem ((c : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩) (run_main m ρ)

end Cert.KernelIdeal.Mlp

end
-- ==== Proof.RefValue.lean ====
/-
  The reference computes the perceptron: its last stage, read one operation at a time at an index, is the function
  `Cert.Mlp.mlp` of the five arguments.  Each matrix product is a sum over the contracted axis, each bias a row broadcast
  down the rows, and the composed index maps of the stages are the plain coordinates.
-/
import proofs.«141469_g33294586479106_cont_8to1_b_976_7_alg».proof.Proof.Gen.ReferenceIdeal.Read
import proofs.«141469_g33294586479106_cont_8to1_b_976_7_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Mlp

/-- The reference's result is the perceptron of its arguments, entry by entry. -/
theorem result_eq (x0 : (⟨S16384x1024, .f32⟩ : BufTy).Contents (Elt Ideal)) (x1 : (⟨S1024x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) :
    val_main_v9 (F := Ideal) x0 x1 x2 x3 x4 = mlp x0 x1 x2 x3 x4 := by
  funext i
  rw [val_main_v9_apply, val_main_v6_apply, val_main_v8_apply, val_main_v7_apply]
  unfold mlp
  refine congrArg₂ (· + ·) (Finset.sum_congr rfl fun j _ => congrArg₂ (· * ·) ?_ (congrArg x3 ?_)) (congrArg x4 ?_)
  · rw [val_main_v5_apply, val_main_v3_apply, val_main_v0_apply, val_main_v2_apply, val_main_v1_apply, val_main_v4_apply,
      val_main_cst_apply]
    unfold hiddenAt
    refine congrArg₂ max (congrArg₂ (· + ·) (Finset.sum_congr rfl fun k _ => congrArg₂ (· * ·) (congrArg x0 ?_) (congrArg x1 ?_)) (congrArg x2 ?_)) rfl
    · funext a; match a with | ⟨0, _⟩ => rfl | ⟨1, _⟩ => rfl
    · funext a; match a with | ⟨0, _⟩ => rfl | ⟨1, _⟩ => rfl
    · funext a; match a with | ⟨0, _⟩ => rfl
  · funext a; match a with | ⟨0, _⟩ => rfl | ⟨1, _⟩ => rfl
  · funext a; match a with | ⟨0, _⟩ => rfl

end Cert.ReferenceIdeal.RefValue

end
-- ==== Proof.lean ====
/-
  The kernel computes the two-layer perceptron  relu(x · W1 + b1) · W2 + b2  in eight blocks of 2048 rows, each block in two
  halves from two adjacent slabs of the input matrix; the reference computes it on whole arrays.  Over the extended reals both
  are the same function of the five arguments, entry by entry: every entry of the result is a sum over the hidden layer of
  rectified sums, and neither side regroups a sum or moves a factor, so no finiteness is used.

  The three programs' frames: the two kernels' from the launch of their one region (the input matrix, read by two windows,
  shared between them in halves), the reference's from its run.  The idealization rewrote nothing, so that conjunct is trivial.
-/
import proofs.«141469_g33294586479106_cont_8to1_b_976_7_alg».proof.Defs
import proofs.«141469_g33294586479106_cont_8to1_b_976_7_alg».proof.Proof.Gen.Kernel
import proofs.«141469_g33294586479106_cont_8to1_b_976_7_alg».proof.Proof.Gen.KernelIdeal
import proofs.«141469_g33294586479106_cont_8to1_b_976_7_alg».proof.Proof.Gen.ReferenceIdeal
import proofs.«141469_g33294586479106_cont_8to1_b_976_7_alg».proof.Proof.Gen.Pre_finite_inputs
import proofs.«141469_g33294586479106_cont_8to1_b_976_7_alg».proof.Proof.Gen.ReferenceIdeal.Read
import proofs.«141469_g33294586479106_cont_8to1_b_976_7_alg».proof.Proof.KernelLaunch
import proofs.«141469_g33294586479106_cont_8to1_b_976_7_alg».proof.Proof.IdealValue
import proofs.«141469_g33294586479106_cont_8to1_b_976_7_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Mlp.frame m ρ

/-- So does the idealized kernel. -/
theorem frame_kernelIdeal : Cert.frame_KernelIdeal := fun m ρ _ => Cert.KernelIdeal.Mlp.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the perceptron of those arguments. -/
theorem algebraic : Cert.algebraic_KernelIdeal_ReferenceIdeal := by
  intro m ρ m' ρ' _ hagree
  refine ⟨fun c => Cert.KernelIdeal.Mlp.outArr m c, Cert.KernelIdeal.Mlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
